-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S8192x1024 .f32) (main_arg1 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩
abbrev S512x1024 : Shape := ⟨2, ![512, 1024]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  reduces_S1024x1024_S1024 : S1024x1024.Reduces [1] S1024
  shapeCasts_S1024_S1024x1 : S1024.ShapeCasts S1024x1
  reduces_S512x1024_S512 : S512x1024.Reduces [1] S512
  bitsLt_bf16_f32 : FTy.bits .bf16 < FTy.bits .f32
  shapeCasts_S512_S1x512 : S512.ShapeCasts S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  reducesTo_S4096x1024_S4096_d1 : S4096x1024.ReducesTo [1] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.Spec.lean ====
/-
  What both programs compute, as one function of the two argument arrays.

  For a row x of the first array and a row c of the second (1024 entries each), with
    s = Σ x² + Σ c² − 2 · Σ x·c          (the squared Euclidean distance of the two rows, expanded),
  the entry is
    1 / ( sqrt (max s 0) · 0.03125 + 0.1 ).
  Entry (p, q) of the [8192, 4096] result is this value at row p of the first array and row q of the second.
  The constants are kept as the bit patterns both programs print; the same pattern on both sides never needs a value.
-/
import Idealize.ShloMosaic.PureOps.Ideal
import Idealize.ShloMosaic.Lib.ValueIdx

noncomputable section

namespace Cert.GeomAct

open Idealize.ShloMosaic Idealize.ShloMosaic.ValueIdx

/-- The activation of one pair of rows: the reciprocal of the scaled distance plus 0.1. -/
def act (xr cr : Fin 1024 → EReal) : EReal :=
  Ideal.div (Ideal.ofBits .f32 0x3F800000#32)
    (Ideal.sqrt (max ((∑ k, xr k * xr k) + (∑ k, cr k * cr k)
        - Ideal.ofBits .f32 0x40000000#32 * ∑ k, xr k * cr k) (Ideal.ofBits .f32 0x00000000#32))
      * Ideal.ofBits .f32 0x3D000000#32 + Ideal.ofBits .f32 0x3DCCCCCD#32)

/-- The whole result: entry (p, q) is the activation of row p of `x` and row q of `c`. -/
def G (x : (⟨2, ![8192, 1024]⟩ : Shape).Idx → EReal) (c : (⟨2, ![4096, 1024]⟩ : Shape).Idx → EReal) :
    (⟨2, ![8192, 4096]⟩ : Shape).Idx → EReal :=
  fun i => act (fun k => x (ix2 (i 0) k)) (fun k => c (ix2 (i 1) k))

end Cert.GeomAct

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«119511_j17428977287979_1_alg».proof.Proof.LibKeepdims
import proofs.«119511_j17428977287979_1_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.LibMatmulRows.lean ====
/-
  A rank-2 matrix product whose contraction runs along the SECOND axis of both operands, read at an entry.

  `matmul_rows_rows`: a matrix unit's product of an [A, K] by a [B, K] matrix into a zero accumulator, contracting
  axis 1 of the left operand with axis 1 of the right one, read at (p, q), is ∑ k, L(p,k) · R(q,k): row p of the left
  operand times ROW q of the right one (a product with the transpose). Stated for any dimension record whose four index
  facts (the left index takes the output row and the contraction position, the right index the output column and the
  contraction position) are supplied.
-/
import Idealize.ShloMosaic.Lib.ValueIdx
import Idealize.ShloMosaic.Lib.Pipeline.Value
import Idealize.ShloMosaic.PureOps.Ideal.Laws

noncomputable section

namespace Cert.MatmulRows

open Idealize.ShloMosaic Idealize.ShloMosaic.ValueIdx

/-- A matrix product into a zero accumulator that contracts the second axis of both operands, read at (p, q): the sum
    over the contracted axis of the left operand's row p times the right operand's row q. -/
theorem matmul_rows_rows {A K B : ℕ} {φ₁ φ₂ : FTy}
    (d : DotDims ⟨2, ![A, K]⟩ ⟨2, ![B, K]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (i 1).val)
    (hr1 : ∀ (i : (⟨2, ![A, B]⟩ : Shape).Idx) (q : d.contr.Idx), (d.rhsIdx i q 1).val = (q ⟨0, by omega⟩).val)
    (prec : Option ContractPrecision) (L : FVec Ideal ⟨2, ![A, K]⟩ φ₁) (R : FVec Ideal ⟨2, ![B, K]⟩ φ₂) (p : Fin A) (q : Fin B) :
    FloatOps.matmul d prec L R (constant ⟨2, ![A, B]⟩ .f32 0x00000000#32) (ix2 p q)
      = ∑ k : Fin K, L (ix2 p k) * R (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.MatmulRows

end
-- ==== Proof.LibTileMask.lean ====
import Idealize.ShloMosaic.Lib.ValueIdx
import Idealize.ShloMosaic.Lib.ValueLayout
import Idealize.ShloMosaic.Lib.Pipeline.Value
noncomputable section
namespace Cert.TileMask
open Idealize.ShloMosaic Idealize.ShloMosaic.ValueIdx

/-- A natural number below 2^31, written as a 32-bit word and read back signed, is itself. -/
private theorem toInt_ofNat_small (m : ℕ) (h : m < 2 ^ 31) : (BitVec.ofNat 32 m).toInt = (m : ℤ) := by
  have hm : m % 2 ^ 32 = m := Nat.mod_eq_of_lt (by omega)
  rw [BitVec.toInt_eq_toNat_cond, BitVec.toNat_ofNat, hm]
  split
  · rfl
  · omega

/-- In tile v of width W, the test "global column v·W + j is below n" (a signed 32-bit comparison of v·W + iota against n, all below 2^31) reads 1 exactly when v·W + j < n. -/
theorem col_lt_apply {a b : ℕ} (hio : (⟨2, ![a, b]⟩ : Shape).Iotas .tc 32 [(1 : Fin 2)]) (v W n : ℕ)
    (hv : v * W + b < 2 ^ 31) (hn : n < 2 ^ 31) (p : Fin a) (j : Fin b) :
    cmpi .slt (addi (broadcast ⟨2, ![a, b]⟩ (Scalar.muli (BitVec.ofNat 32 v) (BitVec.ofNat 32 W))) (iota .tc ⟨2, ![a, b]⟩ 32 [1] hio))
        (broadcast ⟨2, ![a, b]⟩ (BitVec.ofNat 32 n)) (ix2 p j)
      = if v * W + j.val < n then 1#1 else 0#1 := by
  have hj := j.isLt
  -- at the index (p, j) the comparison is the signed comparison of the words v·W + (iota at (p, j)) and n
  show IntOp.cmpi .slt (IntOp.addi (Scalar.muli (BitVec.ofNat 32 v) (BitVec.ofNat 32 W))
      (iota .tc ⟨2, ![a, b]⟩ 32 [1] hio (ix2 p j))) (BitVec.ofNat 32 n) = _
  -- the iota along axis 1 reads the column coordinate j
  rw [iota_single_apply]
  show BitVec.ofBool ((BitVec.ofNat 32 v * BitVec.ofNat 32 W + BitVec.ofNat 32 j.val).slt (BitVec.ofNat 32 n)) = _
  -- the word arithmetic is the arithmetic of naturals, and both sides read signed are the naturals themselves
  rw [← BitVec.ofNat_mul, ← BitVec.ofNat_add, BitVec.slt, toInt_ofNat_small _ (by omega), toInt_ofNat_small _ hn]
  by_cases h : v * W + j.val < n
  · have h' : ((v * W + j.val : ℕ) : ℤ) < (n : ℤ) := by exact_mod_cast h
    rw [if_pos h, decide_eq_true h']
    rfl
  · have h' : ¬ ((v * W + j.val : ℕ) : ℤ) < (n : ℤ) := by exact_mod_cast h
    rw [if_neg h, decide_eq_false h']
    rfl

/-- A vector [b] cast to a row [1, b] and spread down the rows to [a, b] reads, at (p, j), the vector's entry j. -/
theorem row_bcast_apply {α : Type} {a b : ℕ} (x : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (j : Fin b) :
    broadcastTo ⟨2, ![a, b]⟩ (shapeCast ⟨2, ![1, b]⟩ x hc) hb (ix2 p j) = x (ix1 j) := by
  rw [broadcastTo_1b_ab_apply, shapeCast_a_1a_apply]

/-- The column test at 1008 rows, tiles of 4096 columns, fewer than 13 tiles and 50257 columns in all. -/
example (v : ℕ) (hv : v < 13) (p : Fin 1008) (j : Fin 4096) :
    cmpi .slt (addi (broadcast ⟨2, ![1008, 4096]⟩ (Scalar.muli (BitVec.ofNat 32 v) 4096#32))
        (iota .tc ⟨2, ![1008, 4096]⟩ 32 [1] (by decide))) (broadcast ⟨2, ![1008, 4096]⟩ 50257#32) (ix2 p j)
      = if v * 4096 + j.val < 50257 then 1#1 else 0#1 :=
  col_lt_apply (by decide) v 4096 50257 (by omega) (by norm_num) p j

end Cert.TileMask
end
-- ==== Proof.BodyAt.lean ====
/-
  What the kernel body stores, at an entry. From a block of 1024 rows of the first array and a block of 512 rows
  of the second (each row whole, 1024 entries), the body forms: the sum of squares of every row of the first block,
  kept as a column and spread along the rows; the sum of squares of every row of the second block, laid as a row and
  spread down the columns; and the matrix product of the first block with the transpose of the second (the change
  of float format before the product is the identity on the extended reals). Entry (p, q) of the stored block is
  therefore the activation of row p of the first block and row q of the second.
-/
import proofs.«119511_j17428977287979_1_alg».proof.Proof.Gen.KernelIdeal.Skeleton
import proofs.«119511_j17428977287979_1_alg».proof.Proof.Spec
import proofs.«119511_j17428977287979_1_alg».proof.Proof.LibRowReduce
import proofs.«119511_j17428977287979_1_alg».proof.Proof.LibMatmulRows
import proofs.«119511_j17428977287979_1_alg».proof.Proof.LibTileMask
import Idealize.ShloMosaic.Lib.ValueIdx
import Idealize.ShloMosaic.PureOps.Ideal.Laws

noncomputable section

namespace Cert.GeomAct.Body

open Cert.KernelIdeal Cert.KernelIdeal.Gen Idealize.ShloMosaic Idealize.ShloMosaic.ValueIdx

/-- The product's left index takes the output row. -/
theorem lhs0 (i : S1024x512.Idx) (q : dot_S1024x1024_S512x1024_S1024x512_1_1_0_0_n_n.contr.Idx) : (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
/-- The product's left index takes the contraction position on its second axis. -/
theorem lhs1 (i : S1024x512.Idx) (q : dot_S1024x1024_S512x1024_S1024x512_1_1_0_0_n_n.contr.Idx) : (dot_S1024x1024_S512x1024_S1024x512_1_1_0_0_n_n.lhsIdx i q 1).val = (q ⟨0, by decide⟩).val :=
  dot_S1024x1024_S512x1024_S1024x512_1_1_0_0_n_n.lhsIdx_val_of_single rfl i q
/-- The product's right index takes the output column as its row. -/
theorem rhs0 (i : S1024x512.Idx) (q : dot_S1024x1024_S512x1024_S1024x512_1_1_0_0_n_n.contr.Idx) : (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
/-- The product's right index takes the contraction position on its second axis. -/
theorem rhs1 (i : S1024x512.Idx) (q : dot_S1024x1024_S512x1024_S1024x512_1_1_0_0_n_n.contr.Idx) : (dot_S1024x1024_S512x1024_S1024x512_1_1_0_0_n_n.rhsIdx i q 1).val = (q ⟨0, by decide⟩).val :=
  dot_S1024x1024_S512x1024_S1024x512_1_1_0_0_n_n.rhsIdx_val_of_single rfl i q

/-- The column of row sums of squares of the first block, spread along the rows, at (p, q). -/
theorem xsq_apply (x0 : Vec Ideal S1024x1024 .f32) (p : Fin 1024) (q : Fin 512) :
    broadcastTo S1024x512 (shapeCast S1024x1 (multiReduction (F := Ideal) .add [1] S1024 (mulf x0 x0) 0x00000000#32 reduces_S1024x1024_S1024 (.inl rfl) rfl) shapeCasts_S1024_S1024x1) broadcasts_S1024x1_S1024x512 (ix2 p q)
      = ∑ k : Fin 1024, x0 (ix2 p k) * x0 (ix2 p k) :=
  (Cert.RowReduce.keepdims_apply _ _ _ p q).trans (Cert.RowReduce.rowSum_apply _ _ _ _ _ p)

/-- The row of row sums of squares of the second block, spread down the columns, at (p, q). -/
theorem csq_apply (x1 : Vec Ideal S512x1024 .f32) (p : Fin 1024) (q : Fin 512) :
    broadcastTo S1024x512 (shapeCast S1x512 (multiReduction (F := Ideal) .add [1] S512 (mulf x1 x1) 0x00000000#32 reduces_S512x1024_S512 (.inl rfl) rfl) shapeCasts_S512_S1x512) broadcasts_S1x512_S1024x512 (ix2 p q)
      = ∑ k : Fin 1024, x1 (ix2 q k) * x1 (ix2 q k) :=
  (Cert.TileMask.row_bcast_apply _ _ _ p q).trans (Cert.RowReduce.rowSum_apply _ _ _ _ _ q)

/-- The product of the first block with the transpose of the second, at (p, q). -/
theorem cross_apply (x0 : Vec Ideal S1024x1024 .f32) (x1 : Vec Ideal S512x1024 .f32) (p : Fin 1024) (q : Fin 512) :
    matmul (F := Ideal) dot_S1024x1024_S512x1024_S1024x512_1_1_0_0_n_n none (truncf .bf16 x0 bitsLt_bf16_f32) (truncf .bf16 x1 bitsLt_bf16_f32) (constant S1024x512 .f32 0x00000000#32) (ix2 p q)
      = ∑ k : Fin 1024, x0 (ix2 p k) * x1 (ix2 q k) :=
  Cert.MatmulRows.matmul_rows_rows dot_S1024x1024_S512x1024_S1024x512_1_1_0_0_n_n rfl rfl lhs0 lhs1 rhs0 rhs1 none _ _ p q

/-- Entry (p, q) of the stored block is the activation of row p of the first block and row q of the second. -/
theorem pay_apply (x0 : Vec Ideal S1024x1024 .f32) (x1 : Vec Ideal S512x1024 .f32) (p : Fin 1024) (q : Fin 512) :
    k0_pay1 (F := Ideal) x0 x1 (ix2 p q) = Cert.GeomAct.act (fun k => x0 (ix2 p k)) (fun k => x1 (ix2 q k)) := by
  unfold Cert.GeomAct.act
  refine congrArg (fun z => Ideal.div (Ideal.ofBits .f32 0x3F800000#32)
    (Ideal.sqrt (max z (Ideal.ofBits .f32 0x00000000#32)) * Ideal.ofBits .f32 0x3D000000#32 + Ideal.ofBits .f32 0x3DCCCCCD#32)) ?_
  exact congrArg₂ (· - ·) (congrArg₂ (· + ·) (xsq_apply x0 p q) (csq_apply x1 p q))
    (congrArg (Ideal.ofBits .f32 0x40000000#32 * ·) (cross_apply x0 x1 p q))

end Cert.GeomAct.Body

end
-- ==== Proof.Blocks.lean ====
/-
  From blocks to the whole array. The grid has 8 × 8 points; point (a, b) reads rows 1024·a … 1024·a + 1023 of the
  first array (whole rows), rows 512·b … 512·b + 511 of the second (whole rows), and writes the block of the result
  with those rows and columns. So entry (p, q) of the block point (a, b) writes is the activation of row 1024·a + p
  of the first array and row 512·b + q of the second: the block is the restriction of the specification to its
  rows and columns. The 64 blocks tile the [8192, 4096] result (row r lies in block r / 1024, column s in block
  s / 512), hence the array ends holding the specification everywhere.
-/
import proofs.«119511_j17428977287979_1_alg».proof.Proof.Gen.KernelIdeal.Value
import proofs.«119511_j17428977287979_1_alg».proof.Proof.BodyAt
import proofs.«119511_j17428977287979_1_alg».proof.Proof.Spec

set_option maxRecDepth 16384

noncomputable section

namespace Cert.GeomAct.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every load and the store of the body start at the origin of their block. -/
theorem origin : (![0, 0] : Fin 2 → Nat) = fun _ => 0 := funext fun a => by fin_cases a <;> rfl

/-- The block indices at a point, decided over the 64 points: the first input moves with the output's rows, the
    second with the output's columns, both take whole rows, and the output's block indices stay below 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every block of the result is some point's. -/
theorem idx_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- What point `t` writes back is its block of the specification of the two argument arrays. -/
theorem flushed_eq (c : Dev nD) (t : Fin cfg0.N) :
    (dats m 0 c).flushed 2 t
      = ((cfg0.win 2).blk t).view.read (Elt Ideal) (Cert.GeomAct.G (V m c main_arg0) (V m c main_arg1)) := by
  rw [Cert.KernelIdeal.Value.flushed2]
  unfold out0_2
  rw [View.canon_unit_zero origin]
  simp only [View.ld_unit_zero (S := S1024x1024) origin, View.ld_unit_zero (S := S512x1024) origin]
  obtain ⟨e0, e1, e2, e3, e4, e5⟩ := idx_facts t
  funext j
  obtain ⟨p, q, rfl⟩ : ∃ (p : Fin 1024) (q : Fin 512), j = ix2 p q := ⟨j 0, j 1, eq_ix2 j⟩
  show k0_pay1 (F := Ideal) (iblk m c 0 t) (iblk m c 1 t) (ix2 p q)
    = Cert.GeomAct.G (V m c main_arg0) (V m c main_arg1) (((cfg0.win 2).blk t).view.emb (ix2 p q))
  refine (Cert.GeomAct.Body.pay_apply (iblk m c 0 t) (iblk m c 1 t) p q).trans ?_
  unfold Cert.GeomAct.G
  -- row p of the first input's block is the array's row that the output entry's row names
  have hx : ∀ k : Fin 1024, iblk m c 0 t (ix2 p k)
      = V m c main_arg0 (ix2 ((((cfg0.win 2).blk t).view.emb (ix2 p q)) 0) k) := fun k => by
    show V m c main_arg0 (((cfg0.win 0).blk t).view.emb (ix2 p k)) = _
    refine congrArg (V m c main_arg0) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 1024 + 1 * k.val = k.val
      omega
  -- row q of the second input's block is the array's row that the output entry's column names
  have hc : ∀ k : Fin 1024, iblk m c 1 t (ix2 q k)
      = V m c main_arg1 (ix2 ((((cfg0.win 2).blk t).view.emb (ix2 p q)) 1) k) := fun k => by
    show V m c main_arg1 (((cfg0.win 1).blk t).view.emb (ix2 q k)) = _
    refine congrArg (V m c main_arg1) (funext fun a => Fin.ext ?_)
    match a with
    | ⟨0, _⟩ =>
      show win0_1.index t (0 : Fin 2) * 512 + 1 * q.val = win0_2.index t (1 : Fin 2) * 512 + 1 * q.val
      omega
    | ⟨1, _⟩ =>
      show win0_1.index t (1 : Fin 2) * 1024 + 1 * k.val = k.val
      omega
  exact congrArg₂ Cert.GeomAct.act (funext hx) (funext hc)

/-- An index of the result is in point `t`'s block iff each coordinate is in the block's range on its axis. -/
theorem mem_blk (t : Fin cfg0.N) (i : S8192x4096.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v0).slice (win0_2.rect t)).set ↔ _
  rw [View.set_slice_whole, Rect.mem_set_unit]
  exact Iff.rfl

/-- Every index of the result lies in some point's block: the blocks tile the array. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-- The result array after the run is the specification of the argument arrays as launched. -/
theorem final (c : Dev nD) :
    (dats m 0 c).arrAt 2 cfg0.N
      = Cert.GeomAct.G (m ((c : Thread nD τ).loc main_arg0)) (m ((c : Thread nD τ).loc main_arg1)) :=
  (dats m 0 c).arrAt_eq_of_cover 2 _ (fun t _ => flushed_eq m c t) cover

/-- The kernel's run: the result array ends at the specification of the arguments, the arguments unchanged. -/
theorem run : θ_run defs (onTc (τ := τ) (main (F := Ideal))) ⟨m, fun _ => 0, ρ⟩ fun r => ∀ c : Dev nD,
      r.2.mem ((c : Thread nD τ).loc main_v0)
        = Cert.GeomAct.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.GeomAct.Blocks

end
-- ==== Proof.Scale.lean ====
/-
  The one place where the two programs spell a number differently. The kernel multiplies the distance by the
  constant 0.03125, the reference divides it by the square root of 1024. Over the extended reals these agree for
  every value of the distance: 1024 = 32², so its square root is the real number 32; the constant 0.03125 is
  exactly 1/32 (a power of two, hence exactly representable); and dividing an extended real by a nonzero real
  is multiplying it by the reciprocal, at the infinities too.
-/
import Idealize.ShloMosaic.PureOps.Ideal

noncomputable section

namespace Cert.GeomAct

open Idealize.ShloMosaic

/-- The single-precision pattern of 1024.0 denotes the real 1024. -/
theorem ofBits_1024 : Ideal.ofBits .f32 0x44800000#32 = ((1024 : ℝ) : EReal) := by
  simp [Ideal.ofBits, Ideal.ieee, -EReal.coe_mul]; norm_num

/-- The single-precision pattern of 0.03125 denotes the real 1/32. -/
theorem ofBits_inv32 : Ideal.ofBits .f32 0x3D000000#32 = ((1 / 32 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-- Dividing by the square root of 1024 is multiplying by 0.03125, for every extended real. -/
theorem div_sqrt_1024 (y : EReal) :
    Ideal.div y (Ideal.sqrt (Ideal.ofBits .f32 0x44800000#32)) = y * Ideal.ofBits .f32 0x3D000000#32 := by
  rw [ofBits_1024, sqrt_1024, ofBits_inv32, Ideal.div_coe (by norm_num)]

end Cert.GeomAct

end
-- ==== Proof.RefIsSpec.lean ====
/-
  The reference computes the specification. Its last stage, read at an entry (p, q) one operation at a time, is
    1 / ( sqrt (max (Σ x² + Σ c² − 2 · Σ x·c) 0) / sqrt 1024 + 0.1 )
  over row p of the first argument and row q of the second: the two sums of squares start from the constant 0,
  which adds nothing; the einsum is the sum of products along the shared axis; and the division by sqrt 1024 is
  the multiplication by 0.03125 of the specification.
-/
import proofs.«119511_j17428977287979_1_alg».proof.Proof.Gen.ReferenceIdeal.Read
import proofs.«119511_j17428977287979_1_alg».proof.Proof.Spec
import proofs.«119511_j17428977287979_1_alg».proof.Proof.Scale

noncomputable section

namespace Cert.GeomAct.Ref

open Cert.ReferenceIdeal Cert.ReferenceIdeal.Read Idealize.ShloMosaic Idealize.ShloMosaic.ValueIdx

/-- The reference's result array is the specification of its two arguments. -/
theorem val_eq_G (x0 : (⟨S8192x1024, .f32⟩ : BufTy).Contents (Elt Ideal)) (x1 : (⟨S4096x1024, .f32⟩ : BufTy).Contents (Elt Ideal)) :
    val_main_v22 (F := Ideal) x0 x1 = Cert.GeomAct.G x0 x1 := by
  funext i
  -- the rows the entry reads: row (i 0) of the first argument, row (i 1) of the second
  have e1 : ∀ k, idx_main_v1 (idx_main_v2 (idx_main_v7 i)) k = ix2 (i 0) k := fun k =>
    funext fun a => Fin.ext (by match a with | ⟨0, _⟩ => rfl | ⟨1, _⟩ => rfl)
  have e4 : ∀ k, idx_main_v4 (idx_main_v6 (idx_main_v8 i)) k = ix2 (i 1) k := fun k =>
    funext fun a => Fin.ext (by match a with | ⟨0, _⟩ => rfl | ⟨1, _⟩ => rfl)
  have el : ∀ k, lidx_main_v5 i k = ix2 (i 0) k := fun k =>
    funext fun a => Fin.ext (by match a with | ⟨0, _⟩ => rfl | ⟨1, _⟩ => rfl)
  have er : ∀ k, ridx_main_v5 i k = ix2 (i 1) k := fun k =>
    funext fun a => Fin.ext (by match a with | ⟨0, _⟩ => rfl | ⟨1, _⟩ => rfl)
  rw [val_main_v22_apply, val_main_v21_apply, val_main_cst_5_apply, val_main_v20_apply, val_main_v19_apply,
    val_main_cst_4_apply, val_main_v18_apply, val_main_v17_apply, val_main_v16_apply, val_main_cst_3_apply,
    val_main_v15_apply, val_main_v14_apply, val_main_v13_apply, val_main_cst_2_apply, val_main_v12_apply,
    val_main_v11_apply, val_main_v10_apply, val_main_cst_1_apply, val_main_v5_apply, val_main_v9_apply,
    val_main_v8_apply, val_main_v6_apply, val_main_v4_apply, val_main_cst_0_apply, val_main_v7_apply,
    val_main_v2_apply, val_main_v1_apply, val_main_cst_apply]
  simp only [e1, e4, el, er, val_main_v0_apply, val_main_v3_apply, Ideal.ofBits_def, Ideal.addf_def, Ideal.subf_def,
    Ideal.mulf_def, Ideal.maximumf_def, Ideal.hostDivf_def, Ideal.hostUnary_sqrt_def, Ideal.ofBits_zero_f32, zero_add,
    Cert.GeomAct.div_sqrt_1024, Cert.GeomAct.G, Cert.GeomAct.act]
  rfl

end Cert.GeomAct.Ref

end
-- ==== Proof.lean ====
/-
  The kernel and its reference compute the same array over the extended reals.

  Both take x : [8192, 1024] and c : [4096, 1024] and return, at entry (p, q),
    1 / ( sqrt (max (Σ x_p² + Σ c_q² − 2 · Σ x_p·c_q) 0) · s + 0.1 ),
  the reciprocal of the scaled Euclidean distance between row p of x and row q of c, plus 0.1. The kernel works on
  a grid of 8 × 8 blocks of 1024 × 512 entries, each from whole rows of the two arrays, and multiplies by the
  constant s = 0.03125; the reference works on the whole arrays and divides by sqrt 1024. Since 1024 = 32² and
  0.03125 = 1/32 exactly, and dividing an extended real by a nonzero real is multiplying by its reciprocal, the two
  scales agree for every value, finite or not; every other operation is the same on both sides, in the same order,
  and a change of float format before the kernel's matrix product is the identity. The blocks tile the result, so
  the kernel's array is that function of its arguments everywhere.

  The kernel's idealization rewrote no operation, so that it preserves the kernel holds trivially; the three
  programs' runs terminate with their arguments unchanged.
-/
import proofs.«119511_j17428977287979_1_alg».proof.Defs
import proofs.«119511_j17428977287979_1_alg».proof.Proof.Gen.Kernel
import proofs.«119511_j17428977287979_1_alg».proof.Proof.Gen.Kernel.Skeleton
import proofs.«119511_j17428977287979_1_alg».proof.Proof.Gen.Kernel.Launch
import proofs.«119511_j17428977287979_1_alg».proof.Proof.Gen.Kernel.Points
import proofs.«119511_j17428977287979_1_alg».proof.Proof.Gen.Kernel.Frame
import proofs.«119511_j17428977287979_1_alg».proof.Proof.Gen.KernelIdeal
import proofs.«119511_j17428977287979_1_alg».proof.Proof.Gen.KernelIdeal.Skeleton
import proofs.«119511_j17428977287979_1_alg».proof.Proof.Gen.KernelIdeal.Launch
import proofs.«119511_j17428977287979_1_alg».proof.Proof.Gen.KernelIdeal.Points
import proofs.«119511_j17428977287979_1_alg».proof.Proof.Gen.KernelIdeal.Frame
import proofs.«119511_j17428977287979_1_alg».proof.Proof.Gen.ReferenceIdeal
import proofs.«119511_j17428977287979_1_alg».proof.Proof.Gen.Pre_finite_inputs
import proofs.«119511_j17428977287979_1_alg».proof.Proof.Gen.KernelIdeal.Value
import proofs.«119511_j17428977287979_1_alg».proof.Proof.Gen.ReferenceIdeal.Run
import proofs.«119511_j17428977287979_1_alg».proof.Proof.Gen.ReferenceIdeal.Read
import proofs.«119511_j17428977287979_1_alg».proof.Proof.Blocks
import proofs.«119511_j17428977287979_1_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the result array at the same function
    of the arguments: the kernel's blocks tile it, and the reference's last stage is it. -/
theorem algebraic : Cert.algebraic_KernelIdeal_ReferenceIdeal := by
  intro m ρ m' ρ' _ hagree
  refine ⟨fun c => Cert.GeomAct.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.GeomAct.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.GeomAct.Ref.val_eq_G, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
